-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x256 : Shape := ⟨3, ![8, 4096, 256]⟩
abbrev S1x512x256 : Shape := ⟨3, ![1, 512, 256]⟩
abbrev S_ : Shape := ⟨0, ![]⟩

class Facts : Prop where
  bcast_S_S8x4096x256 : S_.BroadcastsInDim S8x4096x256 (![] : Fin 0 → Fin S8x4096x256.rank)
  reducesTo_S8x4096x256_S_d0_1_2 : S8x4096x256.ReducesTo [0, 1, 2] S_
  h_S_ : 0 < S_.numel
  bcast_S_S1x512x256 : S_.BroadcastsInDim S1x512x256 (![] : Fin 0 → Fin S1x512x256.rank)
  reducesTo_S1x512x256_S_d0_1_2 : S1x512x256.ReducesTo [0, 1, 2] S_

variable [Facts]

def fn {F : FTy → Type} [FloatOps F] (main_arg0 : FVec F S8x4096x256 .f32) (main_arg1 : FVec F S1x512x256 .f32) : IVec S_ 1 :=
  let main_v0 : FVec F S8x4096x256 .f32 := Host.absf main_arg0
  let main_cst : FVec F S_ .f32 := constant S_ .f32 0x7F800000#32
  let main_v1 : FVec F S8x4096x256 .f32 := broadcastInDim S8x4096x256 ![] bcast_S_S8x4096x256 main_cst
  let main_v2 : IVec S8x4096x256 1 := cmpf .olt main_v0 main_v1
  let main_c : IVec S_ 1 := constantI S_ 1 1#1
  let main_v3 : IVec S_ 1 := (fun x v => Host.reduce IntOp.andi x v reducesTo_S8x4096x256_S_d0_1_2 h_S_) main_v2 main_c
  let main_v4 : FVec F S1x512x256 .f32 := Host.absf main_arg1
  let main_cst_0 : FVec F S_ .f32 := constant S_ .f32 0x7F800000#32
  let main_v5 : FVec F S1x512x256 .f32 := broadcastInDim S1x512x256 ![] bcast_S_S1x512x256 main_cst_0
  let main_v6 : IVec S1x512x256 1 := cmpf .olt main_v4 main_v5
  let main_c_1 : IVec S_ 1 := constantI S_ 1 1#1
  let main_v7 : IVec S_ 1 := (fun x v => Host.reduce IntOp.andi x v reducesTo_S1x512x256_S_d0_1_2 h_S_) main_v6 main_c_1
  let main_v8 : IVec S_ 1 := andi main_v3 main_v7
  main_v8
-- ==== Kernel.lean ====
abbrev S8x4096x256 : Shape := ⟨3, ![8, 4096, 256]⟩
abbrev S1x512x256 : Shape := ⟨3, ![1, 512, 256]⟩
abbrev S512x256 : Shape := ⟨2, ![512, 256]⟩
abbrev S_ : Shape := ⟨0, ![]⟩
abbrev S512 : Shape := ⟨1, ![512]⟩
abbrev S1x512 : Shape := ⟨2, ![1, 512]⟩
abbrev S8x4096x512 : Shape := ⟨3, ![8, 4096, 512]⟩
abbrev S1x2048x256 : Shape := ⟨3, ![1, 2048, 256]⟩
abbrev S1x2048x512 : Shape := ⟨3, ![1, 2048, 512]⟩
abbrev S2048x256 : Shape := ⟨2, ![2048, 256]⟩
abbrev S2048 : Shape := ⟨1, ![2048]⟩
abbrev S2048x1 : Shape := ⟨2, ![2048, 1]⟩
abbrev S2048x512 : Shape := ⟨2, ![2048, 512]⟩

abbrev nBuf : Space → Nat
  | .hbm => 9
  | .vmem => 6
  | .smem => 0
  | _ => 0

abbrev bufTy : (tb : Table) → Fin (tcTables nBuf tb) → BufTy
  | .hbm, ⟨0, _⟩ => ⟨S8x4096x256, .f32⟩
  | .hbm, ⟨1, _⟩ => ⟨S1x512x256, .f32⟩
  | .hbm, ⟨2, _⟩ => ⟨S512x256, .f32⟩
  | .hbm, ⟨3, _⟩ => ⟨S512x256, .f32⟩
  | .hbm, ⟨4, _⟩ => ⟨S_, .f32⟩
  | .hbm, ⟨5, _⟩ => ⟨S512, .f32⟩
  | .hbm, ⟨6, _⟩ => ⟨S1x512, .f32⟩
  | .hbm, ⟨7, _⟩ => ⟨S512x256, .bf16⟩
  | .hbm, ⟨8, _⟩ => ⟨S8x4096x512, .f32⟩
  | .local _ .vmem, ⟨0, _⟩ => ⟨S1x2048x256, .f32⟩
  | .local _ .vmem, ⟨1, _⟩ => ⟨S1x2048x256, .f32⟩
  | .local _ .vmem, ⟨2, _⟩ => ⟨S512x256, .bf16⟩
  | .local _ .vmem, ⟨3, _⟩ => ⟨S1x512, .f32⟩
  | .local _ .vmem, ⟨4, _⟩ => ⟨S1x2048x512, .f32⟩
  | .local _ .vmem, ⟨5, _⟩ => ⟨S1x2048x512, .f32⟩
  | _, _ => ⟨S8x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S1x512x256_S512x256 : S1x512x256.ShapeCasts S512x256
  reducesTo_S512x256_S512_d1 : S512x256.ReducesTo [1] S512
  h_S_ : 0 < S_.numel
  shapeCasts_S512_S1x512 : S512.ShapeCasts S1x512
  bitsLt_bf16_f32 : FTy.bits .bf16 < FTy.bits .f32
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S2048x256_S2048 : S2048x256.Reduces [1] S2048
  shapeCasts_S2048_S2048x1 : S2048.ShapeCasts S2048x1
  broadcasts_S2048x1_S2048x512 : S2048x1.Broadcasts S2048x512
  broadcasts_S1x512_S2048x512 : S1x512.Broadcasts S2048x512
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  shapeCasts_S2048x512_S1x2048x512 : S2048x512.ShapeCasts S1x2048x512
  dot_S2048x256_S512x256_S2048x512_1_1_0_0_n_n_wf : DotDims.WF S2048x256 S512x256 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S8x4096x256.size a
  hwx0_0 : ∀ i : grid0.Coords, EltTy.bits .f32 = 32 ∨ (Rect.block (s := S8x4096x256) S1x2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .bf16 = 32 ∨ (Rect.block (s := S512x256) S512x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x512.size a ≤ S8x4096x512.size a
  hwx0_3 : ∀ i : grid0.Coords, EltTy.bits .f32 = 32 ∨ (Rect.block (s := S8x4096x512) S1x2048x512.size (cc0_transform_3 i) (hinb0_3 i)).WholeWords (EltTy.packing .f32)

variable [Facts₀]

def dot_S2048x256_S512x256_S2048x512_1_1_0_0_n_n : DotDims S2048x256 S512x256 S2048x512 where
  lhsContracting := [1]
  rhsContracting := [1]
  lhsNonContracting := [0]
  rhsNonContracting := [0]
  lhsBatch := []
  rhsBatch := []
  wf := dot_S2048x256_S512x256_S2048x512_1_1_0_0_n_n_wf

abbrev win0_0 : Pipeline.Window sig grid0 :=
  Pipeline.Window.ofSpec (Memref.whole main_arg0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4096x256 : Shape := ⟨3, ![8, 4096, 256]⟩
abbrev S1x512x256 : Shape := ⟨3, ![1, 512, 256]⟩
abbrev S512x256 : Shape := ⟨2, ![512, 256]⟩
abbrev S_ : Shape := ⟨0, ![]⟩
abbrev S8x4096 : Shape := ⟨2, ![8, 4096]⟩
abbrev S8x4096x1 : Shape := ⟨3, ![8, 4096, 1]⟩
abbrev S512 : Shape := ⟨1, ![512]⟩
abbrev S8x4096x512 : Shape := ⟨3, ![8, 4096, 512]⟩
abbrev S1x1x512 : Shape := ⟨3, ![1, 1, 512]⟩

abbrev nBuf : Space → Nat
  | .hbm => 19
  | .vmem => 0
  | .smem => 0
  | _ => 0

abbrev bufTy : (tb : Table) → Fin (tcTables nBuf tb) → BufTy
  | .hbm, ⟨0, _⟩ => ⟨S8x4096x256, .f32⟩
  | .hbm, ⟨1, _⟩ => ⟨S1x512x256, .f32⟩
  | .hbm, ⟨2, _⟩ => ⟨S512x256, .f32⟩
  | .hbm, ⟨3, _⟩ => ⟨S8x4096x256, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S512x256, .f32⟩
  | .hbm, ⟨8, _⟩ => ⟨S_, .f32⟩
  | .hbm, ⟨9, _⟩ => ⟨S512, .f32⟩
  | .hbm, ⟨10, _⟩ => ⟨S8x4096x512, .f32⟩
  | .hbm, ⟨11, _⟩ => ⟨S1x1x512, .f32⟩
  | .hbm, ⟨12, _⟩ => ⟨S8x4096x512, .f32⟩
  | .hbm, ⟨13, _⟩ => ⟨S8x4096x512, .f32⟩
  | .hbm, ⟨14, _⟩ => ⟨S8x4096x512, .f32⟩
  | .hbm, ⟨15, _⟩ => ⟨S_, .f32⟩
  | .hbm, ⟨16, _⟩ => ⟨S8x4096x512, .f32⟩
  | .hbm, ⟨17, _⟩ => ⟨S8x4096x512, .f32⟩
  | .hbm, ⟨18, _⟩ => ⟨S8x4096x512, .f32⟩
  | _, _ => ⟨S8x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  shapeCasts_S1x512x256_S512x256 : S1x512x256.ShapeCasts S512x256
  reducesTo_S8x4096x256_S8x4096_d2 : S8x4096x256.ReducesTo [2] S8x4096
  h_S_ : 0 < S_.numel
  bcast_S8x4096_S8x4096x1_0_1 : S8x4096.BroadcastsInDim S8x4096x1 (![0, 1] : Fin 2 → Fin S8x4096x1.rank)
  reducesTo_S512x256_S512_d1 : S512x256.ReducesTo [1] S512
  bcast_S512_S1x1x512_2 : S512.BroadcastsInDim S1x1x512 (![2] : Fin 1 → Fin S1x1x512.rank)
  bcast_S8x4096x1_S8x4096x512_0_1_2 : S8x4096x1.BroadcastsInDim S8x4096x512 (![0, 1, 2] : Fin 3 → Fin S8x4096x512.rank)
  bcast_S1x1x512_S8x4096x512_0_1_2 : S1x1x512.BroadcastsInDim S8x4096x512 (![0, 1, 2] : Fin 3 → Fin S8x4096x512.rank)
  bcast_S_S8x4096x512 : S_.BroadcastsInDim S8x4096x512 (![] : Fin 0 → Fin S8x4096x512.rank)
  dot_S8x4096x256_S512x256_S8x4096x512_2_1_01_0_n_n_wf : DotDims.WF S8x4096x256 S512x256 S8x4096x512 [2] [1] [0, 1] [0] [] []

variable [Facts₀]

def dot_S8x4096x256_S512x256_S8x4096x512_2_1_01_0_n_n : DotDims S8x4096x256 S512x256 S8x4096x512 where
  lhsContracting := [2]
  rhsContracting := [1]
  lhsNonContracting := [0, 1]
  rhsNonContracting := [0]
  lhsBatch := []
  rhsBatch := []
  wf := dot_S8x4096x256_S512x256_S8x4096x512_2_1_01_0_n_n_wf

class Facts : Prop extends Facts₀ where

variable [Facts]
-- ==== Proof.SqDist.lean ====
/-
  The squared Euclidean distance from every point to every centre, in its expanded form.

  The points are `x[b, s, ·]` (8 × 4096 of them, 256 coordinates each) and the centres `c[0, k, ·]` (512 of them). The
  entry at `(b, s, k)` is
      ‖x[b, s]‖² + ‖c[k]‖² − 2 · ⟨x[b, s], c[k]⟩,
  each of the three terms a sum over the 256 coordinates, and the factor two the float literal `0x40000000` that both
  programs print. The function is stated on the extended reals exactly as both programs compute it: the two squared
  norms are added first, then twice the inner product is subtracted. Nothing is rearranged, so no distributive law
  and no finiteness of the inputs is involved.
-/
import Idealize.ShloMosaic.PureOps.Ideal
import Idealize.ShloMosaic.Lib.ValueIdx

noncomputable section

namespace Cert.SqDist

open Idealize.ShloMosaic Idealize.ShloMosaic.ValueIdx

/-- The squared norm of the point `(b, s)`: the sum over its 256 coordinates of their squares. -/
def normSqPoint (x : FVec Ideal ⟨3, ![8, 4096, 256]⟩ .f32) (b : Fin 8) (s : Fin 4096) : EReal :=
  ∑ d : Fin 256, x (ix3 b s d) * x (ix3 b s d)

/-- The squared norm of centre `k`. -/
def normSqCentre (c : FVec Ideal ⟨3, ![1, 512, 256]⟩ .f32) (k : Fin 512) : EReal :=
  ∑ d : Fin 256, c (ix3 (0 : Fin 1) k d) * c (ix3 (0 : Fin 1) k d)

/-- The inner product of the point `(b, s)` with centre `k`. -/
def cross (x : FVec Ideal ⟨3, ![8, 4096, 256]⟩ .f32) (c : FVec Ideal ⟨3, ![1, 512, 256]⟩ .f32)
    (b : Fin 8) (s : Fin 4096) (k : Fin 512) : EReal :=
  ∑ d : Fin 256, x (ix3 b s d) * c (ix3 (0 : Fin 1) k d)

/-- The entry at `(b, s, k)`: the two squared norms added, twice the inner product taken away. -/
def entry (x : FVec Ideal ⟨3, ![8, 4096, 256]⟩ .f32) (c : FVec Ideal ⟨3, ![1, 512, 256]⟩ .f32)
    (b : Fin 8) (s : Fin 4096) (k : Fin 512) : EReal :=
  (normSqPoint x b s + normSqCentre c k) - Ideal.ofBits .f32 0x40000000#32 * cross x c b s k

/-- The whole array of squared distances, index by index. -/
def sqDist (x : FVec Ideal ⟨3, ![8, 4096, 256]⟩ .f32) (c : FVec Ideal ⟨3, ![1, 512, 256]⟩ .f32) :
    FVec Ideal ⟨3, ![8, 4096, 512]⟩ .f32 :=
  fun i => entry x c (i 0) (i 1) (i 2)

/-- At an index written by its coordinates the array is the entry. -/
theorem sqDist_apply (x : FVec Ideal ⟨3, ![8, 4096, 256]⟩ .f32) (c : FVec Ideal ⟨3, ![1, 512, 256]⟩ .f32)
    (b : Fin 8) (s : Fin 4096) (k : Fin 512) : sqDist x c (ix3 b s k) = entry x c b s k := rfl

end Cert.SqDist

end
-- ==== Proof.RefValue.lean ====
/-
  The reference computes the squared distances.

  The reference program squares the points and sums each over its coordinates, squares the centres and sums each over
  its coordinates, contracts points against centres over the coordinate axis, broadcasts the two vectors of squared norms
  across the result, adds them and subtracts twice the contraction. Read one stage at a time at an index `(b, s, k)`, the
  three sums are the squared norm of point `(b, s)`, the squared norm of centre `k` and their inner product: every index
  map along the way keeps the coordinates it is given, and the reshape of the centres from `[1, 512, 256]` to
  `[512, 256]` sends row `k`, column `d` to `(0, k, d)` because `(k · 256 + d) / 256 = k` and `(k · 256 + d) % 256 = d`. The
  two host sums start from the literal zero, which is the extended real `0` and so adds nothing.
-/
import proofs.«175958_j30829275251214_2_alg».proof.Proof.Gen.ReferenceIdeal.Read
import proofs.«175958_j30829275251214_2_alg».proof.Proof.SqDist

noncomputable section

namespace Cert.ReferenceIdeal.RefValue

open Cert.ReferenceIdeal Cert.ReferenceIdeal.Read Idealize.ShloMosaic Idealize.ShloMosaic.ValueIdx Cert.SqDist

/-- The point's squares are summed at the point's own row: the broadcasts and the kept unit axis pass `(b, s)` through. -/
theorem idx_point (b : Fin 8) (s : Fin 4096) (k : Fin 512) (d : Fin 256) :
    idx_main_v2 (idx_main_v3 (idx_main_v8 (ix3 b s k))) d = ix3 b s d :=
  funext fun a => Fin.ext (by match a with | ⟨0, _⟩ => rfl | ⟨1, _⟩ => rfl | ⟨2, _⟩ => rfl)

/-- The centre's squares are summed at row `k` of the reshaped centres, which is `(0, k, ·)` of the argument. -/
theorem idx_centre (b : Fin 8) (s : Fin 4096) (k : Fin 512) (d : Fin 256) :
    idx_main_v0 (idx_main_v5 (idx_main_v7 (idx_main_v9 (ix3 b s k))) d) = ix3 (0 : Fin 1) k d :=
  funext fun a => Fin.ext (by
    match a with
    | ⟨0, _⟩ => rfl
    | ⟨1, _⟩ =>
      show (k.val * 256 + d.val) / 256 % 512 = k.val
      have := k.isLt; have := d.isLt; omega
    | ⟨2, _⟩ =>
      show (k.val * 256 + d.val) % 256 = d.val
      have := d.isLt; omega)

/-- The contraction reads the point at `(b, s, d)`, -/
theorem idx_left (b : Fin 8) (s : Fin 4096) (k : Fin 512) (d : Fin 256) :
    lidx_main_v6 (ix3 b s k) d = ix3 b s d :=
  funext fun a => Fin.ext (by match a with | ⟨0, _⟩ => rfl | ⟨1, _⟩ => rfl | ⟨2, _⟩ => rfl)

/-- and the reshaped centres at `(k, d)`, which is `(0, k, d)` of the argument. -/
theorem idx_right (b : Fin 8) (s : Fin 4096) (k : Fin 512) (d : Fin 256) :
    idx_main_v0 (ridx_main_v6 (ix3 b s k) d) = ix3 (0 : Fin 1) k d :=
  funext fun a => Fin.ext (by
    match a with
    | ⟨0, _⟩ => rfl
    | ⟨1, _⟩ =>
      show (k.val * 256 + d.val) / 256 % 512 = k.val
      have := k.isLt; have := d.isLt; omega
    | ⟨2, _⟩ =>
      show (k.val * 256 + d.val) % 256 = d.val
      have := d.isLt; omega)

/-- The first broadcast operand at `(b, s, k)` is the squared norm of point `(b, s)`. -/
theorem point_term (x0 : FVec Ideal S8x4096x256 .f32) (b : Fin 8) (s : Fin 4096) (k : Fin 512) :
    val_main_v8 (F := Ideal) x0 (ix3 b s k) = normSqPoint x0 b s := by
  rw [val_main_v8_apply, val_main_v3_apply, val_main_v2_apply, val_main_cst_apply, Ideal.ofBits_def,
    Ideal.ofBits_zero_f32, zero_add]
  exact Finset.sum_congr rfl fun d _ => by rw [val_main_v1_apply, idx_point]; rfl

/-- The second broadcast operand at `(b, s, k)` is the squared norm of centre `k`. -/
theorem centre_term (x1 : FVec Ideal S1x512x256 .f32) (b : Fin 8) (s : Fin 4096) (k : Fin 512) :
    val_main_v9 (F := Ideal) x1 (ix3 b s k) = normSqCentre x1 k := by
  rw [val_main_v9_apply, val_main_v7_apply, val_main_v5_apply, val_main_cst_0_apply, Ideal.ofBits_def,
    Ideal.ofBits_zero_f32, zero_add]
  exact Finset.sum_congr rfl fun d _ => by rw [val_main_v4_apply, val_main_v0_apply, idx_centre]; rfl

/-- The contraction at `(b, s, k)` is the inner product of point `(b, s)` with centre `k`. -/
theorem cross_term (x0 : FVec Ideal S8x4096x256 .f32) (x1 : FVec Ideal S1x512x256 .f32)
    (b : Fin 8) (s : Fin 4096) (k : Fin 512) :
    val_main_v6 (F := Ideal) x0 x1 (ix3 b s k) = cross x0 x1 b s k := by
  rw [val_main_v6_apply]
  exact Finset.sum_congr rfl fun d _ => by rw [val_main_v0_apply, idx_left, idx_right]

/-- The reference's result, as a function of its two arguments, is the array of squared distances. -/
theorem ref_eq (x0 : FVec Ideal S8x4096x256 .f32) (x1 : FVec Ideal S1x512x256 .f32) :
    val_main_v13 (F := Ideal) x0 x1 = sqDist x0 x1 := by
  funext i
  obtain ⟨b, s, k, rfl⟩ : ∃ (b : Fin 8) (s : Fin 4096) (k : Fin 512), i = ix3 b s k := ⟨i 0, i 1, i 2, eq_ix3 i⟩
  rw [val_main_v13_apply, val_main_v10_apply, val_main_v12_apply, point_term, centre_term, cross_term,
    val_main_v11_apply, val_main_cst_1_apply, sqDist_apply]
  rfl

end Cert.ReferenceIdeal.RefValue

end
-- ==== Proof.LibMatmulT.lean ====
/-
  A matrix times a transposed matrix, read at an index.

  With the dimension numbers "contract axis 1 of the left operand against axis 1 of the right operand, no batch axis",
  the product of an [M, K] matrix `A` and an [N, K] matrix `B` is `A · Bᵀ`: its entry at `(a, b)` is
  `Σ_c A[a, c] · B[b, c]`. Stated at the ideal values for a kernel's matrix unit accumulating into zeros (only the
  sum is left) and into any accumulator (the accumulator's entry plus the sum), for arbitrary extents.
-/
import Idealize.ShloMosaic.PureOps.Ideal
import Idealize.ShloMosaic.PureOps.Ideal.Laws
import Idealize.ShloMosaic.Lib.ValueIdx

noncomputable section

namespace Idealize.ShloMosaic.MatmulT

open Idealize.ShloMosaic Idealize.ShloMosaic.ValueIdx

variable {M K N : ℕ} {φ₁ φ₂ : FTy}

/-- The left operand of `A · Bᵀ` is read at `(a, c)` and the right one at `(b, c)`, for the contraction position `c`. -/
theorem idx_apply (w : DotDims.WF ⟨2, ![M, K]⟩ ⟨2, ![N, K]⟩ ⟨2, ![M, N]⟩ [1] [1] [0] [0] [] []) (a : Fin M) (b : Fin N) (c : Fin K) :
    (⟨[1], [1], [0], [0], [], [], w⟩ : DotDims ⟨2, ![M, K]⟩ ⟨2, ![N, K]⟩ ⟨2, ![M, N]⟩).lhsIdx (ix2 a b)
        ((contrEquiv1 (⟨[1], [1], [0], [0], [], [], w⟩ : DotDims ⟨2, ![M, K]⟩ ⟨2, ![N, K]⟩ ⟨2, ![M, N]⟩) K rfl rfl).symm c) = ix2 a c
    ∧ (⟨[1], [1], [0], [0], [], [], w⟩ : DotDims ⟨2, ![M, K]⟩ ⟨2, ![N, K]⟩ ⟨2, ![M, N]⟩).rhsIdx (ix2 a b)
        ((contrEquiv1 (⟨[1], [1], [0], [0], [], [], w⟩ : DotDims ⟨2, ![M, K]⟩ ⟨2, ![N, K]⟩ ⟨2, ![M, N]⟩) K rfl rfl).symm c) = ix2 b c := by
  have c2 := contrEquiv1_symm_val
    (⟨[1], [1], [0], [0], [], [], w⟩ : DotDims ⟨2, ![M, K]⟩ ⟨2, ![N, K]⟩ ⟨2, ![M, N]⟩) K rfl rfl c
  constructor
  · funext ax; apply Fin.ext
    match ax with
    | ⟨0, _⟩ => simp [DotDims.lhsIdx]; rfl
    | ⟨1, _⟩ => simp [DotDims.lhsIdx]; exact c2
  · funext ax; apply Fin.ext
    match ax with
    | ⟨0, _⟩ => simp [DotDims.rhsIdx]; rfl
    | ⟨1, _⟩ => simp [DotDims.rhsIdx]; exact c2

/-- `A · Bᵀ` accumulated into `acc`, at `(a, b)`: the accumulator's entry plus `Σ_c A[a, c] · B[b, c]`. -/
theorem matmul_apply (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂)
    (acc : FVec Ideal ⟨2, ![M, N]⟩ .f32) (a : Fin M) (b : Fin N) :
    FloatOps.matmul (⟨[1], [1], [0], [0], [], [], w⟩ : DotDims ⟨2, ![M, K]⟩ ⟨2, ![N, K]⟩ ⟨2, ![M, N]⟩) prec A B acc (ix2 a b)
      = acc (ix2 a b) + ∑ c : Fin K, A (ix2 a c) * B (ix2 b c) := by
  rw [Ideal.matmul_apply,
    ← Equiv.sum_comp (contrEquiv1 (⟨[1], [1], [0], [0], [], [], w⟩ : DotDims ⟨2, ![M, K]⟩ ⟨2, ![N, K]⟩ ⟨2, ![M, N]⟩) K rfl rfl).symm]
  refine congrArg (acc (ix2 a b) + ·) (Finset.sum_congr rfl fun c _ => ?_)
  rw [(idx_apply w a b c).1, (idx_apply w a b c).2]

/-- `A · Bᵀ` into the zero accumulator, at `(a, b)`: `Σ_c A[a, c] · B[b, c]`. -/
theorem matmul_zero_apply (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂) (a : Fin M) (b : Fin N) :
    FloatOps.matmul (⟨[1], [1], [0], [0], [], [], w⟩ : DotDims ⟨2, ![M, K]⟩ ⟨2, ![N, K]⟩ ⟨2, ![M, N]⟩) prec A B
        (constant ⟨2, ![M, N]⟩ .f32 0x00000000#32) (ix2 a b)
      = ∑ c : Fin K, A (ix2 a c) * B (ix2 b c) := by
  rw [matmul_apply]
  show Ideal.ofBits .f32 0x00000000#32 + _ = _
  rw [Ideal.ofBits_zero_f32, zero_add]

end Idealize.ShloMosaic.MatmulT

end
-- ==== Proof.LibKeepdims.lean ====
/-
  The column forms a sum that keeps its reduced axis goes through, read at an index.

  A row sum that keeps the reduced axis as a unit axis (`keepdims`) leaves a vector of length `a`, casts it to the
  column `[a, 1]`, and broadcasts the column across `b` lanes to `[a, b]`. Read at an index: the column at `(i, u)` is
  the vector at `i`, and the broadcast at `(i, j)` is the column at `(i, 0)`, for arbitrary extents and any element
  type. (The leading-unit-axis casts and the row broadcast `[1, b] → [a, b]` are the library's.)
-/
import Idealize.ShloMosaic.Lib.Pipeline.Value
import Idealize.ShloMosaic.Lib.ValueIdx

namespace Idealize.ShloMosaic.Keepdims

open Idealize.ShloMosaic Idealize.ShloMosaic.ValueIdx

variable {α : Type}

/-- A vector of length `a` cast to the column `[a, 1]` reads, at `(i, u)`, the vector at `i`: the two indices have
    the same row-major position `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`: the row coordinate is
    kept (also when `a = 1`, where it can only be `0`), the unit axis is read at `0`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.Keepdims
-- ==== Proof.Payload.lean ====
/-
  What the kernel body stores, read at an index.

  At one grid point the body holds a block `x` of 2048 points (256 coordinates each, under a leading unit axis), the
  512 centres `c` as a `[512, 256]` matrix, and the row `n` of the centres' squared norms (`[1, 512]`). It stores the
  `[1, 2048, 512]` block whose entry at `(·, r, k)` is
      (Σ_d x[0, r, d]² + n[0, k]) − 2 · Σ_d x[0, r, d] · c[k, d].
  The row sums come from a lane reduction whose result is kept as a column and broadcast across the 512 lanes; the row
  `n` is broadcast down the 2048 rows; the inner products are the matrix product of the points with the transposed
  centres into a zero accumulator. The narrowing of the points to a shorter float format before the product is the
  identity on exact values.
-/
import proofs.«175958_j30829275251214_2_alg».proof.Proof.Gen.KernelIdeal.Skeleton
import proofs.«175958_j30829275251214_2_alg».proof.Proof.LibMatmulT
import proofs.«175958_j30829275251214_2_alg».proof.Proof.LibKeepdims
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-- The lane reduction of a `[2048, 256]` block, at row `r`, is the sum over that row's 256 lanes: the reduced index
    with the lane put back is `(r, d)`. -/
theorem laneSum_apply (v : FVec Ideal S2048x256 .f32) (h : S2048x256.Reduces [1] S2048) (hφ : FKind.Formats .f32)
    (hacc : (0x00000000#32 : BitVec 32) = FKind.add.neutral .f32 hφ) (r : Fin 2048) :
    multiReduction .add [1] S2048 v 0x00000000#32 h hφ hacc (ix1 r) = ∑ d : Fin 256, v (ix2 r d) := by
  refine (Ideal.multiReduction_add_single v 0x00000000#32 h hφ hacc (ix1 r)).trans ?_
  refine Finset.sum_congr rfl fun d _ => congrArg v ?_
  funext a; apply Fin.ext
  match a with
  | ⟨0, _⟩ => rfl
  | ⟨1, _⟩ => rfl

/-- The stored block at `(u, r, k)`. -/
theorem payload_apply (x0 : FVec Ideal S1x2048x256 .f32) (x1 : FVec Ideal S512x256 .bf16) (x2 : FVec Ideal S1x512 .f32)
    (u : Fin 1) (r : Fin 2048) (k : Fin 512) :
    k0_pay1 (F := Ideal) x0 x1 x2 (ix3 u r k)
      = ((∑ d : Fin 256, x0 (ix3 (0 : Fin 1) r d) * x0 (ix3 (0 : Fin 1) r d)) + x2 (ix2 (0 : Fin 1) k))
        - Ideal.ofBits .f32 0x40000000#32 * ∑ d : Fin 256, x0 (ix3 (0 : Fin 1) r d) * x1 (ix2 k d) := by
  unfold k0_pay1
  dsimp only
  refine (shapeCast_ab_1ab_apply _ _ u r k).trans ?_
  rw [subf_apply, addf_apply, mulf_apply, broadcast_apply]
  refine congrArg₂ (· - ·) (congrArg₂ (· + ·) ?_ ?_) (congrArg₂ (· * ·) rfl ?_)
  · -- the row sum, kept as a column and broadcast across the lanes
    refine (Keepdims.broadcastTo_a1_ab_apply _ _ r k).trans ?_
    refine (Keepdims.shapeCast_a_a1_apply _ _ r (0 : Fin 1)).trans ?_
    refine (laneSum_apply _ _ _ _ r).trans ?_
    exact Finset.sum_congr rfl fun d _ => by rw [mulf_apply, shapeCast_1ab_ab_apply]
  · -- the centres' squared norms, one row broadcast down the rows
    exact (broadcastTo_1b_ab_apply _ _ r k).trans (congrFun (shapeCast_self x2 _) _)
  · -- the matrix product with the transposed centres
    refine (MatmulT.matmul_zero_apply _ none _ _ r k).trans ?_
    exact Finset.sum_congr rfl fun d _ => by rw [truncf_apply, shapeCast_1ab_ab_apply, shapeCast_self]

end Cert.KernelIdeal.Payload

end
-- ==== Proof.HostPrefix.lean ====
/-
  What the kernel's region finds in its two resident arrays.

  Before the region the program reshapes the centres `[1, 512, 256]` to the matrix `[512, 256]`, narrows a copy of that
  matrix to a shorter float format, and computes the centres' squared norms: the matrix squared entry by entry, summed
  along each row from the literal zero, and the 512 sums laid out as one row `[1, 512]`. On exact values the narrowed
  copy at `(k, d)` is the centres' entry `(0, k, d)`, and the row of norms at `(0, k)` is `Σ_d c[0, k, d]²` (the literal
  zero the sum starts from is the extended real `0`).
-/
import proofs.«175958_j30829275251214_2_alg».proof.Proof.Gen.KernelIdeal.Frame
import Idealize.ShloMosaic.Lib.ValueLayout
import Idealize.ShloMosaic.Lib.ValueIdx
import Idealize.ShloMosaic.Lib.Pipeline.Value
import Idealize.ShloMosaic.Lib.StableHlo.Run
import Idealize.ShloMosaic.PureOps.Ideal.Laws

noncomputable section

namespace Cert.KernelIdeal.HostPrefix

open Cert.KernelIdeal Cert.KernelIdeal.Gen Idealize.ShloMosaic Idealize.ShloMosaic.TcCoe Idealize.ShloMosaic.ValueIdx
open Idealize.SL.Sem Idealize.ShloMosaic.StableHlo

/-- The narrowed copy of the centre matrix, as a function of the centres. -/
def narrowed (a1 : FVec Ideal S1x512x256 .f32) : FVec Ideal S512x256 .bf16 :=
  truncf .bf16 (shapeCast S512x256 a1 shapeCasts_S1x512x256_S512x256) bitsLt_bf16_f32

/-- The row of the centres' squared norms, as a function of the centres. -/
def normRow (a1 : FVec Ideal S1x512x256 .f32) : FVec Ideal S1x512 .f32 :=
  shapeCast S1x512
    (Host.reduceAdd (F := Ideal)
      (mulf (shapeCast S512x256 a1 shapeCasts_S1x512x256_S512x256) (shapeCast S512x256 a1 shapeCasts_S1x512x256_S512x256))
      (constant (F := Ideal) S_ .f32 0x00000000#32) reducesTo_S512x256_S512_d1 h_S_)
    shapeCasts_S512_S1x512

/-- The narrowed copy at `(k, d)` is the centres' entry `(0, k, d)`. -/
theorem narrowed_apply (a1 : FVec Ideal S1x512x256 .f32) (k : Fin 512) (d : Fin 256) :
    narrowed a1 (ix2 k d) = a1 (ix3 (0 : Fin 1) k d) :=
  shapeCast_1ab_ab_apply a1 _ k d

/-- The host's row sum of a `[512, 256]` matrix from the literal zero, at row `k`, is the sum over that row's 256
    entries: the literal zero is the extended real `0`, and the reduced index with the column put back is `(k, d)`. -/
theorem rowSum_apply (v : FVec Ideal S512x256 .f32) (k : Fin 512) :
    Host.reduceAdd (F := Ideal) v (constant (F := Ideal) S_ .f32 0x00000000#32) reducesTo_S512x256_S512_d1 h_S_ (ix1 k)
      = ∑ d : Fin 256, v (ix2 k d) := by
  have hR : S512x256.Reduces [1] S512 := by decide
  simp only [Host.reduceAdd, Ideal.hostReduceAdd_def]
  rw [Ideal.hostReduceAdd_single reducesTo_S512x256_S512_d1 hR, constant_apply, Ideal.ofBits_zero_f32, zero_add]
  refine Finset.sum_congr rfl fun d _ => congrArg v ?_
  funext a; apply Fin.ext
  match a with
  | ⟨0, _⟩ => rfl
  | ⟨1, _⟩ => rfl

/-- The row of norms at `(0, k)` is the sum over `d` of the squares of centre `k`'s coordinates. -/
theorem normRow_apply (a1 : FVec Ideal S1x512x256 .f32) (k : Fin 512) :
    normRow a1 (ix2 (0 : Fin 1) k) = ∑ d : Fin 256, a1 (ix3 (0 : Fin 1) k d) * a1 (ix3 (0 : Fin 1) k d) := by
  unfold normRow
  refine (shapeCast_a_1a_apply _ _ (0 : Fin 1) k).trans ?_
  refine (rowSum_apply _ k).trans ?_
  exact Finset.sum_congr rfl fun d _ => by rw [mulf_apply, shapeCast_1ab_ab_apply]

variable (m : (ℓ : Loc nD τ sig) → Buf (Elt Ideal) ℓ)

/-- The region finds the narrowed copy in the array its second window stages, -/
theorem V_narrowed (c : Dev nD) :
    (V m c main_v4 : S512x256.Idx → EReal) = narrowed (m ((c : Thread nD τ).loc main_arg1)) := by
  dsimp only [Gen.V, Gen.hostOps0]; after_results; rfl

/-- and the row of norms in the array its third window stages. -/
theorem V_normRow (c : Dev nD) :
    (V m c main_v3 : S1x512.Idx → EReal) = normRow (m ((c : Thread nD τ).loc main_arg1)) := by
  dsimp only [Gen.V, Gen.hostOps0]; after_results; rfl

end Cert.KernelIdeal.HostPrefix

end
-- ==== Proof.Blocks.lean ====
/-
  From what each grid point writes back to the whole result array.

  The grid has 8 × 2 points. At point `(b, h)` the body sees rows `2048·h … 2048·h + 2047` of batch `b` of the points, the
  whole (narrowed) centre matrix and the whole row of the centres' squared norms, and writes back rows
  `2048·h … 2048·h + 2047` of batch `b` of the result. An element `(u, r, k)` of a block sits in its array at
  block index × block size + its own coordinate on every axis; so the stored entry, which depends on row `r` of the block
  of points, on centre `k` and on entry `k` of the row of norms, is the squared distance at `(b, 2048·h + r, k)`. The 16
  written blocks tile the `[8, 4096, 512]` result (the block holding row `s` of batch `b` is the one at `(b, s / 2048)`),
  so the array ends holding the squared distances everywhere.
-/
import proofs.«175958_j30829275251214_2_alg».proof.Proof.Gen.KernelIdeal.Value
import proofs.«175958_j30829275251214_2_alg».proof.Proof.SqDist
import proofs.«175958_j30829275251214_2_alg».proof.Proof.Payload
import proofs.«175958_j30829275251214_2_alg».proof.Proof.HostPrefix

noncomputable section

namespace Cert.KernelIdeal.Blocks

open Cert.KernelIdeal Cert.KernelIdeal.Gen Idealize.ShloMosaic Idealize.ShloMosaic.TcCoe Idealize.SL.Sem
open Idealize.ShloMosaic.ValueIdx Cert.SqDist
open Idealize.ShloMosaic.Pipeline (Dat)

variable (m : (ℓ : Loc nD τ sig) → Buf (Elt Ideal) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl

/-- The block index maps, decided over the 16 grid points: the points' window moves with the result's window on the
    batch and row-block axes and stays at lane block 0; the centres' and the norms' windows never move; the result's
    block indices stay in their ranges. -/
theorem index_facts : ∀ t : Fin cfg0.N,
    win0_0.index t (0 : Fin 3) = win0_3.index t (0 : Fin 3)
    ∧ win0_0.index t (1 : Fin 3) = win0_3.index t (1 : Fin 3)
    ∧ win0_0.index t (2 : Fin 3) = 0
    ∧ win0_1.index t (0 : Fin 2) = 0
    ∧ win0_1.index t (1 : Fin 2) = 0
    ∧ win0_2.index t (0 : Fin 2) = 0
    ∧ win0_2.index t (1 : Fin 2) = 0
    ∧ win0_3.index t (2 : Fin 3) = 0
    ∧ win0_3.index t (0 : Fin 3) ≤ 7
    ∧ win0_3.index t (1 : Fin 3) ≤ 1 :=
  (by decide +kernel : ∀ t : Fin grid0.N, _)

/-- Every (batch, row block) pair is some point's block index. -/
theorem index_onto : ∀ (q0 : Fin 8) (q1 : Fin 2), ∃ t : Fin cfg0.N, win0_3.index t = ![q0.val, q1.val, 0] :=
  (by decide +kernel : ∀ (q0 : Fin 8) (q1 : Fin 2), ∃ t : Fin grid0.N, win0_3.index t = ![q0.val, q1.val, 0])

/-- One stored entry is one squared distance. Over variables: `x0`, `x1`, `x2` the three blocks the body reads, `X` and
    `C` the argument arrays; `y` an index of the stored block and `i` the index of the result it lands on, at batch `B`,
    row `O · 2048 + y₁`, lane `y₂`; the block of points holds those rows of `X`, the centre block the centres, the norm
    block their squared norms. -/
theorem entry_eq (X : FVec Ideal S8x4096x256 .f32) (C : FVec Ideal S1x512x256 .f32)
    (x0 : FVec Ideal S1x2048x256 .f32) (x1 : FVec Ideal S512x256 .bf16) (x2 : FVec Ideal S1x512 .f32)
    (B O : Nat) (y : S1x2048x512.Idx) (i : S8x4096x512.Idx)
    (hi0 : (i 0).val = B) (hi1 : (i 1).val = O * 2048 + (y 1).val) (hi2 : (i 2).val = (y 2).val)
    (hx0 : ∀ (y0 : S1x2048x256.Idx) (i0 : S8x4096x256.Idx), (i0 0).val = B → (i0 1).val = O * 2048 + (y0 1).val →
      (i0 2).val = (y0 2).val → x0 y0 = X i0)
    (hx1 : ∀ (k : Fin 512) (d : Fin 256), x1 (ix2 k d) = C (ix3 (0 : Fin 1) k d))
    (hx2 : ∀ k : Fin 512, x2 (ix2 (0 : Fin 1) k) = normSqCentre C k) :
    k0_pay1 (F := Ideal) x0 x1 x2 y = sqDist X C i := by
  obtain ⟨u, r, k, rfl⟩ : ∃ (u : Fin 1) (r : Fin 2048) (k : Fin 512), y = ix3 u r k := ⟨y 0, y 1, y 2, eq_ix3 y⟩
  obtain ⟨b, s, k', rfl⟩ : ∃ (b : Fin 8) (s : Fin 4096) (k' : Fin 512), i = ix3 b s k' := ⟨i 0, i 1, i 2, eq_ix3 i⟩
  obtain rfl : k' = k := Fin.ext hi2
  have h0 : ∀ d : Fin 256, x0 (ix3 (0 : Fin 1) r d) = X (ix3 b s d) := fun d => hx0 _ _ hi0 hi1 rfl
  rw [Payload.payload_apply, sqDist_apply]
  unfold entry normSqPoint cross
  simp only [h0, hx1, hx2]

/-- WHAT POINT `t` WRITES BACK is block `t` of the squared distances of the argument arrays. -/
theorem flushed_eq (c : Dev nD) (t : Fin cfg0.N) :
    (dats m 0 c).flushed 3 t = ((cfg0.win 3).blk t).view.read (Elt Ideal)
      (sqDist (m ((c : Thread nD τ).loc main_arg0)) (m ((c : Thread nD τ).loc main_arg1))) := by
  rw [Value.flushed3]
  unfold out0_3
  rw [View.canon_unit_zero zero3]
  simp only [View.ld_unit_zero (S := S1x2048x256) zero3, View.ld_unit_zero (S := S512x256) zero2,
    View.ld_unit_zero (S := S1x512) zero2]
  obtain ⟨e00, e01, e02, e10, e11, e20, e21, e32, -, -⟩ := index_facts t
  funext j
  show k0_pay1 (F := Ideal) (iblk m c 0 t) (iblk m c 1 t) (iblk m c 2 t) j
    = sqDist (m ((c : Thread nD τ).loc main_arg0)) (m ((c : Thread nD τ).loc main_arg1)) (((cfg0.win 3).blk t).view.emb j)
  refine entry_eq _ _ _ _ _ (win0_3.index t (0 : Fin 3)) (win0_3.index t (1 : Fin 3)) j _ ?_ ?_ ?_ ?_ ?_ ?_
  · show win0_3.index t (0 : Fin 3) * 1 + 1 * (j 0).val = win0_3.index t (0 : Fin 3)
    have hj : (j 0).val < 1 := (j 0).isLt
    omega
  · show win0_3.index t (1 : Fin 3) * 2048 + 1 * (j 1).val = win0_3.index t (1 : Fin 3) * 2048 + (j 1).val
    omega
  · show win0_3.index t (2 : Fin 3) * 512 + 1 * (j 2).val = (j 2).val
    omega
  · intro y0 i0 h0 h1 h2
    have he : ((cfg0.win 0).blk t).view.emb y0 = i0 := by
      funext a; apply Fin.ext
      match a with
      | ⟨0, _⟩ =>
        show win0_0.index t (0 : Fin 3) * 1 + 1 * (y0 0).val = (i0 0).val
        have hy : (y0 0).val < 1 := (y0 0).isLt
        omega
      | ⟨1, _⟩ =>
        show win0_0.index t (1 : Fin 3) * 2048 + 1 * (y0 1).val = (i0 1).val
        omega
      | ⟨2, _⟩ =>
        show win0_0.index t (2 : Fin 3) * 256 + 1 * (y0 2).val = (i0 2).val
        omega
    show V m c main_arg0 (((cfg0.win 0).blk t).view.emb y0) = m ((c : Thread nD τ).loc main_arg0) i0
    rw [he, V_main_arg0]
  · intro k d
    have he : ((cfg0.win 1).blk t).view.emb (ix2 k d) = ix2 k d := by
      funext a; apply Fin.ext
      match a with
      | ⟨0, _⟩ =>
        show win0_1.index t (0 : Fin 2) * 512 + 1 * k.val = k.val
        omega
      | ⟨1, _⟩ =>
        show win0_1.index t (1 : Fin 2) * 256 + 1 * d.val = d.val
        omega
    show V m c main_v4 (((cfg0.win 1).blk t).view.emb (ix2 k d)) = m ((c : Thread nD τ).loc main_arg1) (ix3 (0 : Fin 1) k d)
    rw [he, HostPrefix.V_narrowed]
    exact HostPrefix.narrowed_apply _ k d
  · intro k
    have he : ((cfg0.win 2).blk t).view.emb (ix2 (0 : Fin 1) k) = ix2 (0 : Fin 1) k := by
      funext a; apply Fin.ext
      match a with
      | ⟨0, _⟩ =>
        show win0_2.index t (0 : Fin 2) * 1 + 1 * 0 = 0
        omega
      | ⟨1, _⟩ =>
        show win0_2.index t (1 : Fin 2) * 512 + 1 * k.val = k.val
        omega
    show V m c main_v3 (((cfg0.win 2).blk t).view.emb (ix2 (0 : Fin 1) k)) = normSqCentre (m ((c : Thread nD τ).loc main_arg1)) k
    rw [he, HostPrefix.V_normRow]
    exact HostPrefix.normRow_apply _ k

/-- An index of the result is in point `t`'s block iff each coordinate is in the block's range on its axis. -/
theorem mem_blk (t : Fin cfg0.N) (i : S8x4096x512.Idx) :
    i ∈ ((cfg0.win 3).blk t).view.set ↔ ∀ a : Fin 3, win0_3.index t a * S1x2048x512.size a ≤ (i a).val
      ∧ (i a).val < win0_3.index t a * S1x2048x512.size a + S1x2048x512.size a := by
  show i ∈ ((View.whole main_v5).slice (win0_3.rect t)).set ↔ _
  rw [View.set_slice_whole, Rect.mem_set_unit]
  exact Iff.rfl

/-- THE COVER: the index `(b, s, k)` is in the block of the point with block index `(b, s / 2048, 0)`. -/
theorem covered (i : S8x4096x512.Idx) :
    ∃ t : Fin cfg0.N, (cfg0.win 3).flush t = true ∧ i ∈ ((cfg0.win 3).blk t).view.set := by
  have hi0 : (i 0).val < 8 := (i 0).isLt
  have hi1 : (i 1).val < 4096 := (i 1).isLt
  have hi2 : (i 2).val < 512 := (i 2).isLt
  obtain ⟨t, ht⟩ := index_onto ⟨(i 0).val, hi0⟩ ⟨(i 1).val / 2048, by omega⟩
  have q0 : win0_3.index t (0 : Fin 3) = (i 0).val := congrFun ht 0
  have q1 : win0_3.index t (1 : Fin 3) = (i 1).val / 2048 := congrFun ht 1
  have q2 : win0_3.index t (2 : Fin 3) = 0 := congrFun ht 2
  refine ⟨t, flush0_3 t, ?_⟩
  rw [mem_blk]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 2048 ≤ (i 1).val ∧ (i 1).val < win0_3.index t (1 : Fin 3) * 2048 + 2048
    omega
  | ⟨2, _⟩ =>
    show win0_3.index t (2 : Fin 3) * 512 ≤ (i 2).val ∧ (i 2).val < win0_3.index t (2 : Fin 3) * 512 + 512
    omega

/-- THE ARRAY after the run: the squared distances of the argument arrays. -/
theorem final (c : Dev nD) : (dats m 0 c).arrAt 3 cfg0.N
    = sqDist (m ((c : Thread nD τ).loc main_arg0)) (m ((c : Thread nD τ).loc main_arg1)) :=
  (dats m 0 c).arrAt_eq_of_cover 3 _ (fun t _ => flushed_eq m c t) covered

/-- The kernel's run, read: the result array at the squared distances of the arguments, the arguments unchanged. -/
theorem run : θ_run defs (onTc (τ := τ) (main (F := Ideal))) ⟨m, fun _ => 0, ρ⟩ fun r => ∀ c : Dev nD,
      r.2.mem ((c : Thread nD τ).loc main_v5)
        = sqDist (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Blocks

end
-- ==== Proof.lean ====
/-
  A kernel that computes squared Euclidean distances from 8 × 4096 points to 512 centres, against its reference.

  Both programs use the expansion ‖x − c‖² = ‖x‖² + ‖c‖² − 2·⟨x, c⟩. The reference computes the three terms over whole
  arrays. The kernel computes the centres' squared norms and a narrowed copy of the centres once, ahead of its grid,
  and then, for each of 16 tiles of 2048 points, the points' squared norms by a lane sum, the inner products by a matrix
  product with the transposed centres, and the combination. On exact values narrowing a float is the identity, a lane
  sum, a host sum and a matrix product are plain finite sums, and both programs add the two squared norms first and
  subtract twice the inner product last, with the same literal for the factor two. So both results are the one function
  `Cert.SqDist.sqDist` of the arguments, index by index, on all extended reals: the proof never uses that the inputs are
  finite.

  The parts: `SqDist` states the function; `RefValue` reads the reference's run as that function; `Payload` reads what the
  kernel body stores at an index; `HostPrefix` reads the two arrays computed ahead of the grid; `Blocks` goes from what
  each grid point writes back to the whole result array and restates the kernel's run. The three frame claims are the
  generated runs; the idealization rewrote nothing, so the kernel's idealization claim is trivially true.
-/
import proofs.«175958_j30829275251214_2_alg».proof.Defs
import proofs.«175958_j30829275251214_2_alg».proof.Proof.Gen.Kernel
import proofs.«175958_j30829275251214_2_alg».proof.Proof.Gen.Kernel.Frame
import proofs.«175958_j30829275251214_2_alg».proof.Proof.Gen.KernelIdeal
import proofs.«175958_j30829275251214_2_alg».proof.Proof.Gen.KernelIdeal.Frame
import proofs.«175958_j30829275251214_2_alg».proof.Proof.Gen.KernelIdeal.Value
import proofs.«175958_j30829275251214_2_alg».proof.Proof.Gen.ReferenceIdeal
import proofs.«175958_j30829275251214_2_alg».proof.Proof.Gen.ReferenceIdeal.Run
import proofs.«175958_j30829275251214_2_alg».proof.Proof.Gen.ReferenceIdeal.Read
import proofs.«175958_j30829275251214_2_alg».proof.Proof.Gen.Pre_finite_inputs
import proofs.«175958_j30829275251214_2_alg».proof.Proof.SqDist
import proofs.«175958_j30829275251214_2_alg».proof.Proof.RefValue
import proofs.«175958_j30829275251214_2_alg».proof.Proof.Blocks
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read on exact values. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten when it was read on exact values. -/
theorem preserves : Cert.preserves_Kernel_KernelIdeal := trivial

/-- From memories that agree on the two arguments both programs end with the array of squared distances of those
    arguments: the kernel's run read block by block, the reference's run read stage by stage. -/
theorem algebraic : Cert.algebraic_KernelIdeal_ReferenceIdeal := by
  intro m ρ m' ρ' _ hagree
  refine ⟨_, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
